-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x1024 : Shape := ⟨3, ![32, 2048, 1024]⟩
abbrev S64 : Shape := ⟨1, ![64]⟩
abbrev S_ : Shape := ⟨0, ![]⟩

class Facts : Prop where
  bcast_S_S32x2048x1024 : S_.BroadcastsInDim S32x2048x1024 (![] : Fin 0 → Fin S32x2048x1024.rank)
  reducesTo_S32x2048x1024_S_d0_1_2 : S32x2048x1024.ReducesTo [0, 1, 2] S_
  h_S_ : 0 < S_.numel
  bcast_S_S64 : S_.BroadcastsInDim S64 (![] : Fin 0 → Fin S64.rank)
  reducesTo_S64_S_d0 : S64.ReducesTo [0] S_

variable [Facts]

def fn {F : FTy → Type} [FloatOps F] (main_arg0 : FVec F S32x2048x1024 .f32) (main_arg1 : FVec F S64 .f32) : IVec S_ 1 :=
  let main_v0 : FVec F S32x2048x1024 .f32 := Host.absf main_arg0
  let main_cst : FVec F S_ .f32 := constant S_ .f32 0x7F800000#32
  let main_v1 : FVec F S32x2048x1024 .f32 := broadcastInDim S32x2048x1024 ![] bcast_S_S32x2048x1024 main_cst
  let main_v2 : IVec S32x2048x1024 1 := cmpf .olt main_v0 main_v1
  let main_c : IVec S_ 1 := constantI S_ 1 1#1
  let main_v3 : IVec S_ 1 := (fun x v => Host.reduce IntOp.andi x v reducesTo_S32x2048x1024_S_d0_1_2 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  main_v8
-- ==== Kernel.lean ====
abbrev S32x2048x1024 : Shape := ⟨3, ![32, 2048, 1024]⟩
abbrev S64 : Shape := ⟨1, ![64]⟩
abbrev S65536x1024 : Shape := ⟨2, ![65536, 1024]⟩
abbrev S2x1x1024 : Shape := ⟨3, ![2, 1, 1024]⟩
abbrev S4096x1024 : Shape := ⟨2, ![4096, 1024]⟩
abbrev S1x1x1024 : Shape := ⟨3, ![1, 1, 1024]⟩
abbrev S1x1024 : Shape := ⟨2, ![1, 1024]⟩
abbrev S1024 : Shape := ⟨1, ![1024]⟩
abbrev S2x1024 : Shape := ⟨2, ![2, 1024]⟩
abbrev S_ : Shape := ⟨0, ![]⟩
abbrev S64x16 : Shape := ⟨2, ![64, 16]⟩
abbrev S2048x1024 : Shape := ⟨2, ![2048, 1024]⟩

abbrev nBuf : Space → Nat
  | .hbm => 24
  | .vmem => 9
  | .smem => 0
  | _ => 0

abbrev bufTy : (tb : Table) → Fin (tcTables nBuf tb) → BufTy
  | .hbm, ⟨0, _⟩ => ⟨S32x2048x1024, .f32⟩
  | .hbm, ⟨1, _⟩ => ⟨S64, .f32⟩
  | .hbm, ⟨2, _⟩ => ⟨S65536x1024, .f32⟩
  | .hbm, ⟨3, _⟩ => ⟨S2x1x1024, .f32⟩
  | .hbm, ⟨4, _⟩ => ⟨S2x1024, .f32⟩
  | .hbm, ⟨5, _⟩ => ⟨S_, .f32⟩
  | .hbm, ⟨6, _⟩ => ⟨S1024, .f32⟩
  | .hbm, ⟨7, _⟩ => ⟨S64x16, .f32⟩
  | .hbm, ⟨8, _⟩ => ⟨S_, .f32⟩
  | .hbm, ⟨9, _⟩ => ⟨S64, .f32⟩
  | .hbm, ⟨10, _⟩ => ⟨S_, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64x16, .f32⟩
  | .hbm, ⟨20, _⟩ => ⟨S1024, .f32⟩
  | .hbm, ⟨21, _⟩ => ⟨S1x1024, .f32⟩
  | .hbm, ⟨22, _⟩ => ⟨S65536x1024, .f32⟩
  | .hbm, ⟨23, _⟩ => ⟨S32x2048x1024, .f32⟩
  | .local _ .vmem, ⟨0, _⟩ => ⟨S4096x1024, .f32⟩
  | .local _ .vmem, ⟨1, _⟩ => ⟨S4096x1024, .f32⟩
  | .local _ .vmem, ⟨2, _⟩ => ⟨S1x1x1024, .f32⟩
  | .local _ .vmem, ⟨3, _⟩ => ⟨S1x1x1024, .f32⟩
  | .local _ .vmem, ⟨4, _⟩ => ⟨S2048x1024, .f32⟩
  | .local _ .vmem, ⟨5, _⟩ => ⟨S2048x1024, .f32⟩
  | .local _ .vmem, ⟨6, _⟩ => ⟨S1x1024, .f32⟩
  | .local _ .vmem, ⟨7, _⟩ => ⟨S2048x1024, .f32⟩
  | .local _ .vmem, ⟨8, _⟩ => ⟨S2048x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_call0_cst : Ref sig .tc := ⟨.hbm, 15, rfl⟩
abbrev main_call0_v0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S32x2048x1024_S65536x1024 : S32x2048x1024.ShapeCasts S65536x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  reduces_S4096x1024_S1024 : S4096x1024.Reduces [0] S1024
  shapeCasts_S1024_S1x1024 : S1024.ShapeCasts S1x1024
  shapeCasts_S2x1x1024_S2x1024 : S2x1x1024.ShapeCasts S2x1024
  reducesTo_S2x1024_S1024_d0 : S2x1024.ReducesTo [0] S1024
  h_S_ : 0 < S_.numel
  shapeCasts_S1024_S64x16 : S1024.ShapeCasts S64x16
  reducesTo_S64x16_S64_d1 : S64x16.ReducesTo [1] S64
  bcast_S_S64 : S_.BroadcastsInDim S64 (![] : Fin 0 → Fin S64.rank)
  bcast_S64_S64x16_0 : S64.BroadcastsInDim S64x16 (![0] : Fin 1 → Fin S64x16.rank)
  shapeCasts_S64x16_S1024 : S64x16.ShapeCasts S1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  shapeCasts_S65536x1024_S32x2048x1024 : S65536x1024.ShapeCasts S32x2048x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S65536x1024.size a
  hwx0_0 : ∀ i : grid0.Coords, EltTy.bits .f32 = 32 ∨ (Rect.block (s := S65536x1024) S4096x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S2x1x1024.size a
  hwx0_1 : ∀ i : grid0.Coords, EltTy.bits .f32 = 32 ∨ (Rect.block (s := S2x1x1024) S1x1x1024.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S65536x1024.size a
  hwx1_0 : ∀ i : grid1.Coords, EltTy.bits .f32 = 32 ∨ (Rect.block (s := S65536x1024) S2048x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1024.size a ≤ S1x1024.size a
  hwx1_1 : ∀ i : grid1.Coords, EltTy.bits .f32 = 32 ∨ (Rect.block (s := S1x1024) S1x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1024.size a ≤ S65536x1024.size a
  hwx1_2 : ∀ i : grid1.Coords, EltTy.bits .f32 = 32 ∨ (Rect.block (s := S65536x1024) S2048x1024.size (cc1_transform_2 i) (hinb1_2 i)).WholeWords (EltTy.packing .f32)

variable [Facts₀]

abbrev win0_0 : Pipeline.Window sig grid0 :=
  Pipeline.Window.ofSpec (Memref.whole main_v0) S4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2048x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S32x2048x1024 : Shape := ⟨3, ![32, 2048, 1024]⟩
abbrev S64 : Shape := ⟨1, ![64]⟩
abbrev S32x2048x64x16 : Shape := ⟨4, ![32, 2048, 64, 16]⟩
abbrev S_ : Shape := ⟨0, ![]⟩
abbrev S1x1x64x1 : Shape := ⟨4, ![1, 1, 64, 1]⟩

abbrev nBuf : Space → Nat
  | .hbm => 19
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S64, .f32⟩
  | .hbm, ⟨2, _⟩ => ⟨S32x2048x64x16, .f32⟩
  | .hbm, ⟨3, _⟩ => ⟨S32x2048x64x16, .f32⟩
  | .hbm, ⟨4, _⟩ => ⟨S_, .f32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S1x1x64x1, .f32⟩
  | .hbm, ⟨16, _⟩ => ⟨S32x2048x64x16, .f32⟩
  | .hbm, ⟨17, _⟩ => ⟨S32x2048x64x16, .f32⟩
  | .hbm, ⟨18, _⟩ => ⟨S32x2048x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  shapeCasts_S32x2048x1024_S32x2048x64x16 : S32x2048x1024.ShapeCasts S32x2048x64x16
  reducesTo_S32x2048x64x16_S64_d0_1_3 : S32x2048x64x16.ReducesTo [0, 1, 3] S64
  h_S_ : 0 < S_.numel
  bcast_S_S64 : S_.BroadcastsInDim S64 (![] : Fin 0 → Fin S64.rank)
  bcast_S64_S1x1x64x1_2 : S64.BroadcastsInDim S1x1x64x1 (![2] : Fin 1 → Fin S1x1x64x1.rank)
  bcast_S1x1x64x1_S32x2048x64x16_0_1_2_3 : S1x1x64x1.BroadcastsInDim S32x2048x64x16 (![0, 1, 2, 3] : Fin 4 → Fin S32x2048x64x16.rank)
  shapeCasts_S32x2048x64x16_S32x2048x1024 : S32x2048x64x16.ShapeCasts S32x2048x1024

variable [Facts₀]

class Facts : Prop extends Facts₀ where

variable [Facts]
-- ==== Proof.KernelRun.lean ====
/-
  The whole program's run with its result buffer named.

  The program is seven stretches in a row: a reshape of the input, the sum-of-squares launch, the host arithmetic that
  turns the two partial rows into the per-column scale (three stretches), the scaling launch, and the reshape back.
  Every weakly fair execution terminates without a fault, and at the end the result buffer holds what the fold of the
  seven stretches leaves there (the last boundary's contents read at the result), while both arguments hold what they
  were launched with.
-/
import proofs.«168889_j15023795601934_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the last
    boundary's contents and the two arguments end as launched. -/
theorem run : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v16 (by decide)),
       (h c _ (mem_uc main_arg0 (by decide))).trans (W7_main_arg0 m ρ c),
       (h c _ (mem_uc main_arg1 (by decide))).trans (W7_main_arg1 m ρ c)⟩)

end Cert.KernelIdeal.Whole

end
-- ==== Proof.LibUnitAxis.lean ====
/-
  A leading unit axis read at an index.

  A block of shape [1, h, w] and the matrix of shape [h, w] with the same entries in row-major order: viewing the
  block as the matrix reads (0, r, c) at (r, c), and storing the matrix as a block reads (r, c) at (·, r, c). For any
  element type and any extents.
-/
import Idealize.ShloMosaic.Lib.Pipeline.Value
import Idealize.ShloMosaic.Lib.ValueIdx

noncomputable section

namespace Cert.Lib.UnitAxis

open Idealize.ShloMosaic Idealize.ShloMosaic.ValueIdx

/-- A block [1, h, w] viewed [h, w] reads (0, r, c) at (r, c). -/
theorem drop_apply {h w : Nat} {α : Type} (v : (⟨3, ![1, h, w]⟩ : Shape).Idx → α)
    (hc : (⟨3, ![1, h, w]⟩ : Shape).ShapeCasts ⟨2, ![h, w]⟩) (r : Fin h) (c : Fin w) :
    shapeCast ⟨2, ![h, w]⟩ v hc (ix2 r c) = v (ix3 (0 : Fin 1) r c) :=
  shapeCast_apply v hc _ _ (by
    rw [Shape.rowMajor_val_three, Shape.rowMajor_val_two]
    show (0 * h + r.val) * w + c.val = r.val * w + c.val
    rw [Nat.zero_mul, Nat.zero_add])

/-- An [h, w] value stored as a block [1, h, w] reads (r, c) at (u, r, c). -/
theorem add_apply {h w : Nat} {α : Type} (v : (⟨2, ![h, w]⟩ : Shape).Idx → α)
    (hc : (⟨2, ![h, w]⟩ : Shape).ShapeCasts ⟨3, ![1, h, w]⟩) (u : Fin 1) (r : Fin h) (c : Fin w) :
    shapeCast ⟨3, ![1, h, w]⟩ v hc (ix3 u r c) = v (ix2 r c) :=
  shapeCast_apply v hc _ _ (by
    have hu : u.val = 0 := by omega
    rw [Shape.rowMajor_val_three, Shape.rowMajor_val_two]
    show r.val * w + c.val = (u.val * h + r.val) * w + c.val
    rw [hu, Nat.zero_mul, Nat.zero_add])

end Cert.Lib.UnitAxis

end
-- ==== Proof.LibMergeRows.lean ====
/-
  Two leading axes merged into one, and split again, read at an index.

  An a × b × c array reshaped to r × c with r = a · b keeps its row-major order, so row (p, q) of the a × b grid of
  length-c rows becomes flat row b · p + q: the reshaped array at (b · p + q, k) is the array at (p, q, k), and an
  r × c array reshaped to a × b × c reads, at (p, q, k), the flat array at (b · p + q, k). For any element type and any
  extents; the number of flat rows is a separate variable with the equation r = a · b as a hypothesis, so that a
  literal such as 65536 need not be spelt as a product.
-/
import Idealize.ShloMosaic.Lib.Pipeline.Value
import Idealize.ShloMosaic.Lib.ValueIdx

noncomputable section

namespace Cert.Lib.MergeRows

open Idealize.ShloMosaic Idealize.ShloMosaic.ValueIdx

variable {a b c r : Nat}

/-- Flat row b · p + q of the r = a · b rows. -/
abbrev flatRow (hr : r = a * b) (p : Fin a) (q : Fin b) : Fin r :=
  ⟨p.val * b + q.val, by
    have hp := p.isLt
    have hq := q.isLt
    have h1 : p.val * b + b ≤ a * b := by
      have := Nat.mul_le_mul_right b (Nat.succ_le_of_lt hp)
      rwa [Nat.succ_mul] at this
    omega⟩

/-- The merged array at (b · p + q, k) is the array at (p, q, k). -/
theorem merge_apply {α : Type} (hr : r = a * b) (x : (⟨3, ![a, b, c]⟩ : Shape).Idx → α)
    (h : (⟨3, ![a, b, c]⟩ : Shape).ShapeCasts ⟨2, ![r, c]⟩) (p : Fin a) (q : Fin b) (k : Fin c) :
    shapeCast ⟨2, ![r, c]⟩ x h (ix2 (flatRow hr p q) k) = x (ix3 p q k) :=
  shapeCast_apply x h _ _ (by
    rw [Shape.rowMajor_val_two, Shape.rowMajor_val_three]
    rfl)

/-- The split array at (p, q, k) is the flat array at (b · p + q, k). -/
theorem split_apply {α : Type} (hr : r = a * b) (y : (⟨2, ![r, c]⟩ : Shape).Idx → α)
    (h : (⟨2, ![r, c]⟩ : Shape).ShapeCasts ⟨3, ![a, b, c]⟩) (p : Fin a) (q : Fin b) (k : Fin c) :
    shapeCast ⟨3, ![a, b, c]⟩ y h (ix3 p q k) = y (ix2 (flatRow hr p q) k) :=
  shapeCast_apply y h _ _ (by
    rw [Shape.rowMajor_val_two, Shape.rowMajor_val_three]
    rfl)

/-- A length-b vector reshaped to a 1 × b row reads, at (0, q), the vector at q. -/
theorem row_apply {α : Type} (v : (⟨1, ![b]⟩ : Shape).Idx → α)
    (h : (⟨1, ![b]⟩ : Shape).ShapeCasts ⟨2, ![1, b]⟩) (q : Fin b) :
    shapeCast ⟨2, ![1, b]⟩ v h (ix2 (0 : Fin 1) q) = v (ix1 q) :=
  shapeCast_apply v h _ _ (by
    rw [Shape.rowMajor_val_two, Shape.rowMajor_val_one]
    show q.val = 0 * b + q.val
    omega)

/-- Entry (k, o) of the transpose of an a × b matrix is entry (o, k) of the matrix. -/
theorem transpose_apply {α : Type} (L : (⟨2, ![a, b]⟩ : Shape).Idx → α)
    (h : (⟨2, ![a, b]⟩ : Shape).Transposes [1, 0] ⟨2, ![b, a]⟩) (k : Fin b) (o : Fin a) :
    transpose ⟨2, ![b, a]⟩ [1, 0] L h (ix2 k o) = L (ix2 o k) :=
  Idealize.ShloMosaic.transpose_apply [1, 0] L h (ix2 k o) (ix2 o k) fun ax => by
    match ax with
    | ⟨0, _⟩ => rfl
    | ⟨1, _⟩ => rfl

end Cert.Lib.MergeRows

end
-- ==== Proof.Spec.lean ====
/-
  What both programs compute, as one function of the two arguments.

  The input x has 32 · 2048 = 65536 rows of 1024 columns; the columns fall into 64 groups of 16 consecutive columns.
  For group g let ss(g) be the sum of the squares of every entry of x in the group's columns, over all rows. With
  nrm = sqrt (ss + ε) the layer scales every entry of group g by max (nrm(g) − θ(g), 0) / nrm(g). All of it is read on
  the extended reals with the host's own operations, so that the two programs' tails are literally this term.
-/
import Idealize.ShloMosaic.PureOps.Ideal
import Idealize.ShloMosaic.Lib.ValueIdx

noncomputable section

namespace Cert.Spec

open Idealize.ShloMosaic Idealize.ShloMosaic.ValueIdx
open scoped BigOperators

abbrev Scalar0 : Shape := ⟨0, ![]⟩
abbrev Groups : Shape := ⟨1, ![64]⟩
abbrev Flat : Shape := ⟨2, ![65536, 1024]⟩
abbrev Cube : Shape := ⟨3, ![32, 2048, 1024]⟩

/-- The square of the entry in row n (rows counted cyclically, so that any natural number names a row) and column d. -/
def sqAt (X : FVec Ideal Flat .f32) (d : Fin 1024) (n : ℕ) : EReal :=
  X (ix2 (⟨n % 65536, Nat.mod_lt _ (by decide)⟩ : Fin 65536) d) * X (ix2 (⟨n % 65536, Nat.mod_lt _ (by decide)⟩ : Fin 65536) d)

/-- The sum of the squares of column d over all 65536 rows. -/
def colSq (X : FVec Ideal Flat .f32) (d : Fin 1024) : EReal := ∑ n : Fin 65536, sqAt X d n.val

/-- Column j of group g. -/
abbrev colOf (g : Fin 64) (j : Fin 16) : Fin 1024 := ⟨16 * g.val + j.val, by have := g.isLt; have := j.isLt; omega⟩

/-- The sum of the squares of group g: its 16 columns' sums. -/
def groupSq (X : FVec Ideal Flat .f32) : FVec Ideal Groups .f32 := fun g => ∑ j : Fin 16, colSq X (colOf (g 0) j)

/-- From the groups' sums of squares and θ to the groups' scales: max (sqrt (ss + ε) − θ, 0) / sqrt (ss + ε), with the
    host's operations and ε the f32 nearest 1e-7. -/
def scaleOf (hb : Scalar0.BroadcastsInDim Groups ![]) (ss θ : FVec Ideal Groups .f32) : FVec Ideal Groups .f32 :=
  Host.divf
    (maximumf (subf (Host.sqrt (addf ss (broadcastInDim Groups ![] hb (constant (F := Ideal) Scalar0 .f32 0x33D6BF95#32)))) θ)
      (broadcastInDim Groups ![] hb (constant (F := Ideal) Scalar0 .f32 0x00000000#32)))
    (Host.sqrt (addf ss (broadcastInDim Groups ![] hb (constant (F := Ideal) Scalar0 .f32 0x33D6BF95#32))))

/-- The group of column d. -/
abbrev groupOf (d : Fin 1024) : Fin 64 := ⟨d.val / 16, by have := d.isLt; omega⟩

/-- The layer's output: every entry times its group's scale. -/
def output (hb : Scalar0.BroadcastsInDim Groups ![]) (hc : Cube.ShapeCasts Flat)
    (x : FVec Ideal Cube .f32) (θ : FVec Ideal Groups .f32) : FVec Ideal Cube .f32 :=
  fun i => x i * scaleOf hb (groupSq (shapeCast Flat x hc)) θ (ix1 (groupOf (i 2)))

end Cert.Spec

end
-- ==== Proof.SumSq.lean ====
/-
  The first launch: per-column sums of squares, one row of 1024 sums for each half of the rows.

  The grid has 2 · 8 points; point 8·h + s loads tile 8·h + s of the flattened input (rows 4096·(8h+s) … + 4095) and
  adds, column by column, the sum of the squares of the tile's 4096 rows into the 1 × 1 × 1024 output block of half h —
  which it first sets to zero when s = 0 — and the block is written back after s = 7. So row h of the 2 × 1 × 1024
  result holds, at column d, the sum over the 8 tiles of half h of the tile's column-d squares.
-/
import proofs.«168889_j15023795601934_2_alg».proof.Proof.Gen.KernelIdeal.Frame
import proofs.«168889_j15023795601934_2_alg».proof.Proof.LibUnitAxis
import proofs.«168889_j15023795601934_2_alg».proof.Proof.LibMergeRows
import proofs.«168889_j15023795601934_2_alg».proof.Proof.Spec
import Idealize.ShloMosaic.Lib.Pipeline.Value
import Idealize.ShloMosaic.Lib.ValueIdx
import Idealize.ShloMosaic.PureOps.Ideal.Laws
import Idealize.ShloMosaic.Lib.Tactic

noncomputable section

namespace Cert.KernelIdeal.SumSq

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

theorem hz3 : (![0, 0, 0] : Fin 3 → Nat) = fun _ => 0 := funext fun a => by fin_cases a <;> rfl
theorem hz2 : (![0, 0] : Fin 2 → Nat) = fun _ => 0 := funext fun a => by fin_cases a <;> rfl

section AnyValues

variable {F : FTy → Type} [FloatOps F]

/-- At a point that does not reset, the body leaves in the output block the accumulating store's payload of the tile
    and of what the block held. -/
theorem out_B (c : Dev nD) (i : grid0.Coords) (a2 : Memref sig .tc .vmem S4096x1024 .f32) (h2 : a2.IsWhole)
    (a3 : Memref sig .tc .vmem S1x1x1024 .f32) (h3 : a3.IsWhole) (hc : ¬cond0_0 i)
    (x : Vec F S4096x1024 .f32) (xo : Vec F S1x1x1024 .f32) :
    out0_B_1 c i a2 h2 a3 h3 hc x xo = k0_pay2 x xo := by
  unfold out0_B_1
  rw [View.read_writes_eq_canon _ _ _ (cover0_B_1 c i a2 h2 a3 h3 hc x xo)]
  unfold kernelRun0_B
  dsimp only
  rw [View.canon_unit_zero hz3]
  simp only [View.readAt_eq_ld, h2.read_unread, h3.read_unread, View.ld_unit_zero (S := S4096x1024) hz2, View.ld_unit_zero (S := S1x1x1024) hz3]

/-- At a point that resets, the block is first set to the zero payload and the accumulating store reads that back. -/
theorem out_A (c : Dev nD) (i : grid0.Coords) (a2 : Memref sig .tc .vmem S4096x1024 .f32) (h2 : a2.IsWhole)
    (a3 : Memref sig .tc .vmem S1x1x1024 .f32) (h3 : a3.IsWhole) (hc : cond0_0 i)
    (x : Vec F S4096x1024 .f32) :
    out0_A_1 c i a2 h2 a3 h3 hc x = k0_pay2 x (k0_pay1 (F := F)) := by
  unfold out0_A_1
  rw [View.read_writes_eq_canon _ _ _ (cover0_A_1 c i a2 h2 a3 h3 hc x)]
  unfold kernelRun0_A
  dsimp only
  sl_unfold_words
  rw [View.canon_cons_unit_zero (S := S1x1x1024) hz3, View.readCov_unit_zero (S := S1x1x1024) _ hz3]
  simp only [View.readAt_eq_ld, h2.read_unread, View.ld_unit_zero (S := S4096x1024) hz2]

end AnyValues

/-! ## The two payloads at an index, on the extended reals -/

/-- The reset payload is zero everywhere. -/
theorem pay1_apply (u v : Fin 1) (d : Fin 1024) : k0_pay1 (F := Ideal) (ix3 u v d) = 0 := by
  unfold k0_pay1
  refine (Cert.Lib.UnitAxis.add_apply _ _ u v d).trans ?_
  show Ideal.ofBits .f32 0x00000000#32 = 0
  exact Ideal.ofBits_zero_f32

/-- Row r, column d of the tile is what the column reduction's index (d) with r inserted on the reduced axis names. -/
theorem lift_ix (r : Fin 4096) (d : Fin 1024) :
    (reduces_S4096x1024_S1024).lift (ix1 d) r = ix2 r d := by
  funext a
  match a with
  | ⟨0, _⟩ => rfl
  | ⟨1, _⟩ => rfl

/-- The sum of the squares of column d of a tile. -/
def colSqOf (x : Vec Ideal S4096x1024 .f32) (d : Fin 1024) : EReal := ∑ r : Fin 4096, x (ix2 r d) * x (ix2 r d)

/-- The accumulating payload at column d: what the block held there plus the sum of the squares of the tile's column. -/
theorem pay2_apply (x : Vec Ideal S4096x1024 .f32) (xo : Vec Ideal S1x1x1024 .f32) (u v : Fin 1) (d : Fin 1024) :
    k0_pay2 (F := Ideal) x xo (ix3 u v d) = xo (ix3 (0 : Fin 1) (0 : Fin 1) d) + colSqOf x d := by
  obtain rfl : v = 0 := Subsingleton.elim _ _
  unfold k0_pay2
  refine (Cert.Lib.UnitAxis.add_apply _ _ u 0 d).trans ?_
  show (shapeCast S1x1024 xo shapeCasts_S1x1x1024_S1x1024 (ix2 (0 : Fin 1) d) : EReal)
      + shapeCast S1x1024 (multiReduction (F := Ideal) .add [0] S1024 (mulf (F := Ideal) (shapeCast S4096x1024 x shapeCasts_S4096x1024_S4096x1024)
          (shapeCast S4096x1024 x shapeCasts_S4096x1024_S4096x1024)) 0x00000000#32 reduces_S4096x1024_S1024 (.inl rfl) rfl)
          shapeCasts_S1024_S1x1024 (ix2 (0 : Fin 1) d) = _
  rw [Cert.Lib.UnitAxis.drop_apply, Cert.Lib.MergeRows.row_apply]
  refine congrArg (xo (ix3 (0 : Fin 1) (0 : Fin 1) d) + ·) ?_
  unfold colSqOf
  refine (Ideal.multiReduction_add_single (φ := .f32)
    (mulf (F := Ideal) (shapeCast S4096x1024 x shapeCasts_S4096x1024_S4096x1024) (shapeCast S4096x1024 x shapeCasts_S4096x1024_S4096x1024))
    0x00000000#32 reduces_S4096x1024_S1024 (.inl rfl) rfl (ix1 d)).trans ?_
  refine Finset.sum_congr rfl fun r _ => ?_
  rw [lift_ix r d]
  show (shapeCast S4096x1024 x shapeCasts_S4096x1024_S4096x1024 (ix2 r d) : EReal)
      * shapeCast S4096x1024 x shapeCasts_S4096x1024_S4096x1024 (ix2 r d) = _
  rw [shapeCast_self]

/-! ## The accumulation over a half's eight tiles -/

section Region

variable (V : (c : Dev nD) → (b : Ref sig .tc) → Buf (Elt Ideal) ((c : Thread nD τ).loc b))

/-- The printed index maps over the grid: point t loads tile t; the output block is the row of half t / 8. -/
theorem idx_in : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_out : ∀ t : Fin cfg0.N, win0_1.index t (0 : Fin 3) = t.val / 8 ∧ win0_1.index t (1 : Fin 3) = 0
    ∧ win0_1.index t (2 : Fin 3) = 0 :=
  (by decide +kernel : ∀ t : Fin grid0.N, win0_1.index t (0 : Fin 3) = t.val / 8 ∧ win0_1.index t (1 : Fin 3) = 0
    ∧ win0_1.index t (2 : Fin 3) = 0)

/-- Row r of tile t is row 4096·t + r of the flattened input. -/
theorem iblk_apply (c : Dev nD) (t : Fin cfg0.N) (j : S4096x1024.Idx) (k : S65536x1024.Idx)
    (h0 : (k 0).val = 4096 * t.val + (j 0).val) (h1 : (k 1).val = (j 1).val) :
    (iblk0 V c 0 t : Vec Ideal S4096x1024 .f32) j = V c main_v0 k := by
  unfold iblk0
  rw [View.read_apply]
  show V c main_v0 _ = V c main_v0 k
  congr 1
  funext a
  apply Fin.ext
  match a with
  | ⟨0, _⟩ => show win0_0.index t (0 : Fin 2) * 4096 + 1 * (j 0).val = (k 0).val; rw [(idx_in t).1, h0]; omega
  | ⟨1, _⟩ => show win0_0.index t (1 : Fin 2) * 1024 + 1 * (j 1).val = (k 1).val; rw [(idx_in t).2, h1]; omega

/-- The sum of the squares of column d over the 4096 rows of tile n. -/
def tileSq (X : FVec Ideal Spec.Flat .f32) (d : Fin 1024) (n : ℕ) : EReal := ∑ r : Fin 4096, Spec.sqAt X d (4096 * n + r.val)

/-- The column sums of squares the body computes from the tile it loaded at point t are tile t's. -/
theorem block_sq (c : Dev nD) (t : Fin cfg0.N) (d : Fin 1024) :
    colSqOf (iblk0 V c 0 t) d = tileSq (V c main_v0) d t.val := by
  have hN : t.val < 16 := lt_of_lt_of_eq t.isLt N_0
  unfold colSqOf tileSq Spec.sqAt
  refine Finset.sum_congr rfl fun r _ => ?_
  have hr := r.isLt
  rw [iblk_apply V c t (ix2 r d) (ix2 (⟨(4096 * t.val + r.val) % 65536, Nat.mod_lt _ (by decide)⟩ : Fin 65536) d)
    (by show (4096 * t.val + r.val) % 65536 = 4096 * t.val + r.val; omega) rfl]

/-- After point n the output block holds, at column d, the sum over the tiles of n's half up to n of their column-d
    sums of squares: the first point of a half starts from zero, every later one adds its tile. -/
theorem acc_apply (c : Dev nD) : ∀ (n : ℕ) (h : n < cfg0.N) (d : Fin 1024),
    (outsAt0 V c n h : Vec Ideal S1x1x1024 .f32) (ix3 (0 : Fin 1) (0 : Fin 1) d)
      = ∑ s ∈ Finset.range (n % 8 + 1), tileSq (V c main_v0) d (8 * (n / 8) + s)
  | 0, h, d => by
    rw [outsAt0_A V c ⟨0, h⟩ rfl, out_A, pay2_apply, pay1_apply, zero_add, block_sq]
    exact (Finset.sum_range_one (fun s => tileSq (V c main_v0) d (8 * (0 / 8) + s))).symm
  | n + 1, h, d => by
    by_cases h0 : (n + 1) % 8 = 0
    · rw [outsAt0_A V c ⟨n + 1, h⟩ h0, out_A, pay2_apply, pay1_apply, zero_add, block_sq, h0, Finset.sum_range_one]
      exact congrArg (tileSq (V c main_v0) d) (show n + 1 = 8 * ((n + 1) / 8) + 0 by omega)
    · rw [outsAt0_B V c ⟨n + 1, h⟩ h0, out_B, pay2_apply]
      show (outsAt0 V c n _ : Vec Ideal S1x1x1024 .f32) (ix3 (0 : Fin 1) (0 : Fin 1) d) + _ = _
      rw [acc_apply c n (Nat.lt_of_succ_lt h) d, block_sq]
      have e1 : (n + 1) % 8 = n % 8 + 1 := by omega
      have e2 : (n + 1) / 8 = n / 8 := by omega
      rw [e1, e2, Finset.sum_range_succ _ (n % 8 + 1)]
      exact congrArg (fun z => (∑ s ∈ Finset.range (n % 8 + 1), tileSq (V c main_v0) d (8 * (n / 8) + s)) + tileSq (V c main_v0) d z)
        (show n + 1 = 8 * (n / 8) + (n % 8 + 1) by omega)

/-- What the launch leaves in its result: row h holds, at column d, the sum over the eight tiles of half h. -/
def halves (X : FVec Ideal Spec.Flat .f32) : FVec Ideal S2x1x1024 .f32 :=
  fun i => ∑ s ∈ Finset.range 8, tileSq X (i 2) (8 * (i 0).val + s)

/-- The block written back after the last tile of a half is that half's row. -/
theorem flushed_eq (c : Dev nD) (t : Fin cfg0.N) (hf : (cfg0.win 1).flush t = true) :
    (dat0 V c).flushed 1 t = ((cfg0.win 1).blk t).view.read (Elt Ideal) (halves (V c main_v0)) := by
  have hN : t.val < 16 := lt_of_lt_of_eq t.isLt N_0
  have h7 : t.val % 8 = 7 := (flush0_1 t).mp hf
  obtain ⟨q0, q1, q2⟩ := idx_out t
  show (cfg0.win 1).cut (grid0.coords t) ((dat0 V c).after 1 t) = _
  rw [after0_1]
  funext j
  obtain ⟨u, v, d, rfl⟩ : ∃ (u v : Fin 1) (d : Fin 1024), j = ix3 u v d := ⟨j 0, j 1, j 2, eq_ix3 j⟩
  obtain rfl : u = 0 := Subsingleton.elim _ _
  obtain rfl : v = 0 := Subsingleton.elim _ _
  show (outsAt0 V c t.val t.isLt : Vec Ideal S1x1x1024 .f32) (ix3 (0 : Fin 1) (0 : Fin 1) d)
    = halves (V c main_v0) (((cfg0.win 1).blk t).view.emb (ix3 (0 : Fin 1) (0 : Fin 1) d))
  rw [acc_apply V c t.val t.isLt d, h7]
  unfold halves
  have e0 : ((((cfg0.win 1).blk t).view.emb (ix3 (0 : Fin 1) (0 : Fin 1) d)) 0).val = t.val / 8 := by
    show win0_1.index t (0 : Fin 3) * 1 + 1 * 0 = t.val / 8
    omega
  have e2 : (((cfg0.win 1).blk t).view.emb (ix3 (0 : Fin 1) (0 : Fin 1) d)) 2 = d := Fin.ext (by
    show win0_1.index t (2 : Fin 3) * 1024 + 1 * d.val = d.val
    omega)
  rw [e0, e2]

/-- An index is in point t's block iff each coordinate is in the block's range on its axis. -/
theorem mem_blk (t : Fin cfg0.N) (i : S2x1x1024.Idx) :
    i ∈ ((cfg0.win 1).blk t).view.set ↔ ∀ a : Fin 3, win0_1.index t a * S1x1x1024.size a ≤ (i a).val ∧ (i a).val < win0_1.index t a * S1x1x1024.size a + S1x1x1024.size a := by
  show i ∈ ((View.whole main_v1).slice (win0_1.rect t)).set ↔ _
  rw [View.set_slice_whole, Rect.mem_set_unit]
  exact Iff.rfl

/-- The result of the first launch. -/
theorem final (c : Dev nD) : (dat0 V c).arrAt 1 cfg0.N = halves (V c main_v0) :=
  (dat0 V c).arrAt_eq_of_cover 1 (halves (V c main_v0)) (flushed_eq V c) fun i => by
    have h0 : (i 0).val < 2 := (i 0).isLt
    have h1 : (i 1).val < 1 := (i 1).isLt
    have h2 : (i 2).val < 1024 := (i 2).isLt
    obtain ⟨q0, q1, q2⟩ := idx_out ⟨8 * (i 0).val + 7, lt_of_lt_of_eq (by omega) N_0.symm⟩
    have q0' : win0_1.index ⟨8 * (i 0).val + 7, lt_of_lt_of_eq (by omega) N_0.symm⟩ (0 : Fin 3) = (8 * (i 0).val + 7) / 8 := q0
    refine ⟨⟨8 * (i 0).val + 7, lt_of_lt_of_eq (by omega) N_0.symm⟩, (flush0_1 _).mpr (by show (8 * (i 0).val + 7) % 8 = 7; omega), ?_⟩
    rw [mem_blk]
    intro a
    match a with
    | ⟨0, _⟩ => show win0_1.index _ (0 : Fin 3) * 1 ≤ (i 0).val ∧ (i 0).val < win0_1.index _ (0 : Fin 3) * 1 + 1; omega
    | ⟨1, _⟩ => show win0_1.index _ (1 : Fin 3) * 1 ≤ (i 1).val ∧ (i 1).val < win0_1.index _ (1 : Fin 3) * 1 + 1; omega
    | ⟨2, _⟩ => show win0_1.index _ (2 : Fin 3) * 1024 ≤ (i 2).val ∧ (i 2).val < win0_1.index _ (2 : Fin 3) * 1024 + 1024; omega

/-- The launch leaves its input array as it found it. -/
theorem kept (c : Dev nD) : (dat0 V c).arrAt 0 cfg0.N = V c main_v0 :=
  ((dat0 V c).arrAt_in 0 rfl _).trans (A_eq0 V c 0)

end Region

end Cert.KernelIdeal.SumSq

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Scale.lean ====
/-
  The second launch: every entry of the flattened input times the scale of its column.

  The grid has 32 points; point t loads rows 2048·t … 2048·t + 2047 of the flattened input and the whole 1 × 1024 row of
  scales, and writes the tile with each row multiplied, column by column, by the scales. The tiles cover the 65536 rows,
  so the result holds, at (n, d), the input at (n, d) times the scale of column d.
-/
import proofs.«168889_j15023795601934_2_alg».proof.Proof.Gen.KernelIdeal.Frame
import proofs.«168889_j15023795601934_2_alg».proof.Proof.LibRowBroadcasts
import Idealize.ShloMosaic.Lib.Pipeline.Value
import Idealize.ShloMosaic.Lib.ValueIdx
import Idealize.ShloMosaic.PureOps.Ideal.Laws

noncomputable section

namespace Cert.KernelIdeal.Scale

open Cert.KernelIdeal Cert.KernelIdeal.Gen
open Idealize.ShloMosaic Idealize.ShloMosaic.TcCoe Idealize.SL.Sem Idealize.ShloMosaic.ValueIdx
open Idealize.ShloMosaic.Pipeline (Dat)

theorem hz2 : (![0, 0] : Fin 2 → Nat) = fun _ => 0 := funext fun a => by fin_cases a <;> rfl

/-- An entry of X times an entry of s. -/
abbrev prodAt (X : FVec Ideal S65536x1024 .f32) (s : FVec Ideal S1x1024 .f32) (i : S65536x1024.Idx) (k : S1x1024.Idx) : EReal :=
  X i * s k

/-- Every row of X multiplied, column by column, by the one row s. -/
def scaled (X : FVec Ideal S65536x1024 .f32) (s : FVec Ideal S1x1024 .f32) : FVec Ideal S65536x1024 .f32 :=
  fun i => X i * s (ix2 (0 : Fin 1) (i 1))

/-- The body's store at row r, column d of the tile: the tile's entry times the scale of column d. -/
theorem pay_apply (x0 : Vec Ideal S2048x1024 .f32) (x1 : Vec Ideal S1x1024 .f32) (r : Fin 2048) (d : Fin 1024) :
    k1_pay1 (F := Ideal) x0 x1 (ix2 r d) = x0 (ix2 r d) * x1 (ix2 (0 : Fin 1) d) := by
  unfold k1_pay1
  show (shapeCast S2048x1024 x0 shapeCasts_S2048x1024_S2048x1024 (ix2 r d) : EReal)
      * broadcastTo S2048x1024 (shapeCast S1x1024 x1 shapeCasts_S1x1024_S1x1024) broadcasts_S1x1024_S2048x1024 (ix2 r d) = _
  rw [shapeCast_self, shapeCast_self, Cert.Lib.Rows.bcastRow_apply]

/-- The printed index maps over the grid: the input tile and the output tile are tile t, the scales' block is the row. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point t writes back is tile t of the scaled array. -/
theorem flushed_eq (c : Dev nD) (t : Fin cfg1.N) :
    (dat1 V c).flushed 2 t = ((cfg1.win 2).blk t).view.read (Elt Ideal) (scaled (V c main_v0) (V c main_v14)) := by
  show (cfg1.win 2).cut (grid1.coords t) ((dat1 V c).after 2 t) = _
  rw [after1_2]
  unfold out1_2
  rw [View.canon_unit_zero hz2]
  simp only [View.ld_unit_zero (S := S2048x1024) hz2, View.ld_unit_zero (S := S1x1024) hz2]
  obtain ⟨e0, e1, e2, e3, e4, e5⟩ := idx_facts t
  funext j
  obtain ⟨r, d, rfl⟩ : ∃ (r : Fin 2048) (d : Fin 1024), j = ix2 r d := ⟨j 0, j 1, eq_ix2 j⟩
  refine (pay_apply (iblk1 V c 0 t) (iblk1 V c 1 t) r d).trans ?_
  unfold iblk1
  rw [View.read_apply, View.read_apply]
  show prodAt (V c main_v0) (V c main_v14) (((cfg1.win 0).blk t).view.emb (ix2 r d)) (((cfg1.win 1).blk t).view.emb (ix2 (0 : Fin 1) d))
    = prodAt (V c main_v0) (V c main_v14) (((cfg1.win 2).blk t).view.emb (ix2 r d)) (ix2 (0 : Fin 1) ((((cfg1.win 2).blk t).view.emb (ix2 r d)) 1))
  have h0 : ((cfg1.win 0).blk t).view.emb (ix2 r d) = ((cfg1.win 2).blk t).view.emb (ix2 r d) := by
    funext a; apply Fin.ext
    match a with
    | ⟨0, _⟩ => show win1_0.index t (0 : Fin 2) * 2048 + 1 * r.val = win1_2.index t (0 : Fin 2) * 2048 + 1 * r.val; omega
    | ⟨1, _⟩ => show win1_0.index t (1 : Fin 2) * 1024 + 1 * d.val = win1_2.index t (1 : Fin 2) * 1024 + 1 * d.val; omega
  have h1 : ((cfg1.win 1).blk t).view.emb (ix2 (0 : Fin 1) d) = ix2 (0 : Fin 1) ((((cfg1.win 2).blk t).view.emb (ix2 r d)) 1) := by
    funext a; apply Fin.ext
    match a with
    | ⟨0, _⟩ => show win1_1.index t (0 : Fin 2) * 1 + 1 * 0 = 0; omega
    | ⟨1, _⟩ => show win1_1.index t (1 : Fin 2) * 1024 + 1 * d.val = win1_2.index t (1 : Fin 2) * 1024 + 1 * d.val; omega
  exact congrArg₂ (prodAt (V c main_v0) (V c main_v14)) h0 h1

/-- An index is in tile t iff each coordinate is in the tile's range on its axis. -/
theorem mem_blk (t : Fin cfg1.N) (i : S65536x1024.Idx) :
    i ∈ ((cfg1.win 2).blk t).view.set ↔ ∀ a : Fin 2, win1_2.index t a * S2048x1024.size a ≤ (i a).val ∧ (i a).val < win1_2.index t a * S2048x1024.size a + S2048x1024.size a := by
  show i ∈ ((View.whole main_v15).slice (win1_2.rect t)).set ↔ _
  rw [View.set_slice_whole, Rect.mem_set_unit]
  exact Iff.rfl

/-- The result of the second launch: the scaled array. -/
theorem final (c : Dev nD) : (dat1 V c).arrAt 2 cfg1.N = scaled (V c main_v0) (V c main_v14) :=
  (dat1 V c).arrAt_eq_of_cover 2 (scaled (V c main_v0) (V c main_v14)) (fun t _ => flushed_eq V c t) fun i => by
    have h0 : (i 0).val < 65536 := (i 0).isLt
    have h1 : (i 1).val < 1024 := (i 1).isLt
    refine ⟨⟨(i 0).val / 2048, lt_of_lt_of_eq (by omega) N_1.symm⟩, flush1_2 _, ?_⟩
    rw [mem_blk]
    obtain ⟨e0, e1, e2, e3, e4, e5⟩ := idx_facts ⟨(i 0).val / 2048, lt_of_lt_of_eq (by omega) N_1.symm⟩
    have e4' : win1_2.index ⟨(i 0).val / 2048, lt_of_lt_of_eq (by omega) N_1.symm⟩ (0 : Fin 2) = (i 0).val / 2048 := e4
    intro a
    match a with
    | ⟨0, _⟩ => show win1_2.index _ (0 : Fin 2) * 2048 ≤ (i 0).val ∧ (i 0).val < win1_2.index _ (0 : Fin 2) * 2048 + 2048; omega
    | ⟨1, _⟩ => show win1_2.index _ (1 : Fin 2) * 1024 ≤ (i 1).val ∧ (i 1).val < win1_2.index _ (1 : Fin 2) * 1024 + 1024; omega

end Cert.KernelIdeal.Scale

end
-- ==== Proof.Chain.lean ====
/-
  The result buffer, followed back through the seven stretches to the two arguments.

  Reading backwards: the result is the second launch's output viewed as 32 × 2048 × 1024; that output is the flattened
  input scaled by the row of scales the host arithmetic left; the flattened input reaches the second launch unchanged
  (the first launch only reads it); the row of scales is the host arithmetic applied to the first launch's two rows of
  column sums and to θ; and the first launch's rows are the column sums of squares of the flattened input.
-/
import proofs.«168889_j15023795601934_2_alg».proof.Proof.Gen.KernelIdeal.Frame
import proofs.«168889_j15023795601934_2_alg».proof.Proof.SumSq
import proofs.«168889_j15023795601934_2_alg».proof.Proof.Scale
import proofs.«168889_j15023795601934_2_alg».proof.Proof.Spec
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-- The host arithmetic between the launches, up to the groups' sums: the two rows added, then each group's 16
    columns added. -/
def groupSums (Y : FVec Ideal S2x1x1024 .f32) : FVec Ideal S64 .f32 :=
  Host.reduceAdd
    (shapeCast S64x16
      (Host.reduceAdd (shapeCast S2x1024 Y shapeCasts_S2x1x1024_S2x1024) (constant (F := Ideal) S_ .f32 0x00000000#32)
        reducesTo_S2x1024_S1024_d0 h_S_)
      shapeCasts_S1024_S64x16)
    (constant (F := Ideal) S_ .f32 0x00000000#32) reducesTo_S64x16_S64_d1 h_S_

/-- The row of 1024 scales the second launch is given: each group's scale repeated over its 16 columns. -/
def scaleRow (Y : FVec Ideal S2x1x1024 .f32) (θ : FVec Ideal S64 .f32) : FVec Ideal S1x1024 .f32 :=
  shapeCast S1x1024
    (shapeCast S1024 (broadcastInDim S64x16 ![0] bcast_S64_S64x16_0 (Spec.scaleOf bcast_S_S64 (groupSums Y) θ))
      shapeCasts_S64x16_S1024)
    shapeCasts_S1024_S1x1024

variable (m : (ℓ : Loc nD τ sig) → Buf (Elt Ideal) ℓ) (ρ : Dev nD → PrngReg)

/-- The first launch finds the flattened input. -/
theorem flat_in (c : Dev nD) :
    V1 m ρ c main_v0 = shapeCast S65536x1024 (m ((c : Thread nD τ).loc main_arg0)) shapeCasts_S32x2048x1024_S65536x1024 := by
  show StableHlo.after hostOps0 (W0 m ρ c) (Proc.devRef .tc main_v0) = _
  after_results <;> rfl

/-- θ is still what it was launched with after the first launch. -/
theorem theta_kept (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results <;> rfl

/-- The first launch leaves the flattened input in place … -/
theorem flat_kept (c : Dev nD) : W2 m ρ c (Proc.devRef .tc main_v0) = V1 m ρ c main_v0 :=
  (W2_arr m ρ c 0).trans (SumSq.kept (V1 m ρ) c)

/-- … and its result holds the two rows of column sums. -/
theorem sums_out (c : Dev nD) : W2 m ρ c (Proc.devRef .tc main_v1) = SumSq.halves (V1 m ρ c main_v0) :=
  (W2_arr m ρ c 1).trans (SumSq.final (V1 m ρ) c)

/-- The second launch finds the flattened input … -/
theorem flat_in2 (c : Dev nD) : V5 m ρ c main_v0 = W2 m ρ c (Proc.devRef .tc main_v0) := by
  show StableHlo.after hostOps1_2 (StableHlo.after hostOps1_1 (StableHlo.after hostOps1 (W2 m ρ c))) (Proc.devRef .tc main_v0) = _
  after_results <;> rfl

/-- … and the row of scales computed from the first launch's result and θ. -/
theorem row_in2 (c : Dev nD) :
    V5 m ρ c main_v14 = scaleRow (W2 m ρ c (Proc.devRef .tc main_v1)) (W2 m ρ c (Proc.devRef .tc main_arg1)) := by
  show StableHlo.after hostOps1_2 (StableHlo.after hostOps1_1 (StableHlo.after hostOps1 (W2 m ρ c))) (Proc.devRef .tc main_v14) = _
  after_results <;> rfl

/-- The second launch's result is the scaled array. -/
theorem scaled_out (c : Dev nD) :
    W6 m ρ c (Proc.devRef .tc main_v15) = Scale.scaled (V5 m ρ c main_v0) (V5 m ρ c main_v14) :=
  (W6_arr m ρ c 2).trans (Scale.final (V5 m ρ) c)

/-- The result buffer as one term of the two arguments. -/
theorem result_eq (c : Dev nD) :
    W7 m ρ c (Proc.devRef .tc main_v16)
      = shapeCast S32x2048x1024
          (Scale.scaled (shapeCast S65536x1024 (m ((c : Thread nD τ).loc main_arg0)) shapeCasts_S32x2048x1024_S65536x1024)
            (scaleRow (SumSq.halves (shapeCast S65536x1024 (m ((c : Thread nD τ).loc main_arg0)) shapeCasts_S32x2048x1024_S65536x1024))
              (m ((c : Thread nD τ).loc main_arg1))))
          shapeCasts_S65536x1024_S32x2048x1024 := by
  have e : W7 m ρ c (Proc.devRef .tc main_v16)
      = shapeCast S32x2048x1024 (W6 m ρ c (Proc.devRef .tc main_v15)) shapeCasts_S65536x1024_S32x2048x1024 := by
    show StableHlo.after hostOps2 (W6 m ρ c) (Proc.devRef .tc main_v16) = _
    after_results <;> rfl
  rw [e, scaled_out, row_in2, flat_in2, flat_kept, sums_out, theta_kept, flat_in]

end Cert.KernelIdeal.Chain

end
-- ==== Proof.LibBlockedSum.lean ====
/-
  A sum of a·b terms taken b at a time.

  In any commutative additive monoid — the extended reals included, where no cancellation or distributivity is
  available but addition is still associative and commutative — the sum of `f 0, …, f (a·b − 1)` equals the sum over
  the a consecutive stretches of length b of each stretch's own sum. This is the whole algebra behind a matrix product
  whose contraction axis is cut into blocks that are accumulated one after the other.
-/
import Idealize.ShloMosaic.Lib.ValueIdx

namespace Cert.Lib.BlockedSum

open scoped BigOperators

/-- Over ranges: the stretches `b·s, …, b·s + b − 1` for `s < a` exhaust `0, …, a·b − 1`. -/
theorem sum_range_blocks {M : Type*} [AddCommMonoid M] (f : ℕ → M) (b : ℕ) :
    ∀ a : ℕ, ∑ s ∈ Finset.range a, ∑ k ∈ Finset.range b, f (b * s + k) = ∑ k ∈ Finset.range (a * b), f k
  | 0 => by simp
  | a + 1 => by
    rw [Finset.sum_range_succ, sum_range_blocks f b a, Nat.succ_mul, Finset.sum_range_add, Nat.mul_comm b a]

/-- The same with the inner and the total sum over `Fin`: the form in which a block's inner product and the whole
    inner product are read off the two programs. -/
theorem sum_fin_blocks {M : Type*} [AddCommMonoid M] (f : ℕ → M) (a b : ℕ) :
    ∑ s ∈ Finset.range a, ∑ k : Fin b, f (b * s + k.val) = ∑ k : Fin (a * b), f k.val := by
  rw [Fin.sum_univ_eq_sum_range f (a * b), ← sum_range_blocks f b a]
  exact Finset.sum_congr rfl fun s _ => Fin.sum_univ_eq_sum_range (fun k => f (b * s + k)) b

end Cert.Lib.BlockedSum
-- ==== Proof.Sums.lean ====
/-
  Regrouping the 65536 rows.

  The sum-of-squares launch walks the 65536 rows in 2 halves of 8 tiles of 4096 rows, while the reference indexes them
  as 32 batches of 2048 time steps. In a commutative additive monoid — the extended reals included — both nested sums
  are the one sum over all rows.
-/
import proofs.«168889_j15023795601934_2_alg».proof.Proof.LibBlockedSum

namespace Cert.Sums

open scoped BigOperators
open Cert.Lib.BlockedSum

variable {M : Type*} [AddCommMonoid M]

/-- Two halves of eight tiles of 4096 rows are all 65536 rows. -/
theorem sum_tiles (f : ℕ → M) :
    ∑ c : Fin 2, ∑ s ∈ Finset.range 8, ∑ r : Fin 4096, f (4096 * (8 * c.val + s) + r.val) = ∑ n : Fin 65536, f n.val := by
  have inner : ∀ c : ℕ, ∑ s ∈ Finset.range 8, ∑ r : Fin 4096, f (4096 * (8 * c + s) + r.val)
      = ∑ k : Fin 32768, f (32768 * c + k.val) := by
    intro c
    have h := sum_fin_blocks (fun k => f (32768 * c + k)) 8 4096
    refine Eq.trans (Finset.sum_congr rfl fun s _ => Finset.sum_congr rfl fun r _ => ?_) h
    congr 1
    ring
  rw [Fin.sum_univ_eq_sum_range (fun c => ∑ s ∈ Finset.range 8, ∑ r : Fin 4096, f (4096 * (8 * c + s) + r.val)) 2]
  simp only [inner]
  exact sum_fin_blocks f 2 32768

/-- Thirty-two batches of 2048 time steps are all 65536 rows. -/
theorem sum_batches (f : ℕ → M) :
    ∑ b : Fin 32, ∑ t : Fin 2048, f (b.val * 2048 + t.val) = ∑ n : Fin 65536, f n.val := by
  rw [Fin.sum_univ_eq_sum_range (fun b => ∑ t : Fin 2048, f (b * 2048 + t.val)) 32]
  have h := sum_fin_blocks f 32 2048
  refine Eq.trans (Finset.sum_congr rfl fun b _ => Finset.sum_congr rfl fun t _ => ?_) h
  rw [Nat.mul_comm]

end Cert.Sums
-- ==== Proof.Bridge.lean ====
/-
  The kernel's result is the specification's output.

  The term the result buffer holds is read at (b, t, d): the view back to 32 × 2048 × 1024 reads the scaled array at row
  2048·b + t, where the flattened input is the input at (b, t, d) and the row of scales holds the scale of group d / 16.
  That scale is the specification's because the host's two reductions of the first launch's rows — over the two halves,
  then over a group's 16 columns — add up, for each column, the 2 · 8 tiles of 4096 rows, which are all 65536 rows.
-/
import proofs.«168889_j15023795601934_2_alg».proof.Proof.Chain
import proofs.«168889_j15023795601934_2_alg».proof.Proof.Sums
import proofs.«168889_j15023795601934_2_alg».proof.Proof.LibMergeRows
import Idealize.ShloMosaic.Lib.Pipeline.Value
import Idealize.ShloMosaic.Lib.ValueIdx
import Idealize.ShloMosaic.PureOps.Ideal.Laws

noncomputable section

namespace Cert.KernelIdeal.Bridge

open Cert.KernelIdeal Cert.KernelIdeal.Gen
open Idealize.ShloMosaic Idealize.ShloMosaic.TcCoe Idealize.ShloMosaic.ValueIdx
open scoped BigOperators

/-- The two rows viewed 2 × 1024. -/
theorem rows_apply (Y : FVec Ideal S2x1x1024 .f32) (h : Fin 2) (d : Fin 1024) :
    shapeCast S2x1024 Y shapeCasts_S2x1x1024_S2x1024 (ix2 h d) = Y (ix3 h (0 : Fin 1) d) :=
  shapeCast_apply Y shapeCasts_S2x1x1024_S2x1024 _ _ (by
    rw [Shape.rowMajor_val_three, Shape.rowMajor_val_two]
    show (h.val * 1 + 0) * 1024 + d.val = h.val * 1024 + d.val
    omega)

/-- The 1024 columns viewed as 64 groups of 16. -/
theorem groups_apply (v : FVec Ideal S1024 .f32) (g : Fin 64) (j : Fin 16) :
    shapeCast S64x16 v shapeCasts_S1024_S64x16 (ix2 g j) = v (ix1 (Spec.colOf g j)) :=
  shapeCast_apply v shapeCasts_S1024_S64x16 _ _ (by
    rw [Shape.rowMajor_val_one, Shape.rowMajor_val_two]
    show 16 * g.val + j.val = g.val * 16 + j.val
    omega)

/-- 64 groups of 16 viewed as the 1024 columns. -/
theorem ungroup_apply (w : FVec Ideal S64x16 .f32) (d : Fin 1024) :
    shapeCast S1024 w shapeCasts_S64x16_S1024 (ix1 d)
      = w (ix2 (Spec.groupOf d) (⟨d.val % 16, Nat.mod_lt _ (by decide)⟩ : Fin 16)) :=
  shapeCast_apply w shapeCasts_S64x16_S1024 _ _ (by
    rw [Shape.rowMajor_val_two, Shape.rowMajor_val_one]
    show d.val / 16 * 16 + d.val % 16 = d.val
    omega)

/-- A group's value repeated over its 16 columns. -/
theorem spread_apply (v : FVec Ideal S64 .f32) (g : Fin 64) (j : Fin 16) :
    broadcastInDim S64x16 ![0] bcast_S64_S64x16_0 v (ix2 g j) = v (ix1 g) :=
  broadcastInDim_apply _ bcast_S64_S64x16_0 v (ix2 g j) (ix1 g) fun a => match a with
    | ⟨0, _⟩ => by show g.val = if (64 : Nat) = 1 then 0 else g.val; rw [if_neg (by decide)]

/-- The host's sum over the two halves, at column d. -/
theorem colsum_apply (Z : FVec Ideal S2x1024 .f32) (d : Fin 1024) :
    Host.reduceAdd Z (constant (F := Ideal) S_ .f32 0x00000000#32) reducesTo_S2x1024_S1024_d0 h_S_ (ix1 d)
      = ∑ h : Fin 2, Z (ix2 h d) := by
  show Ideal.hostReduceAdd reducesTo_S2x1024_S1024_d0 Z (Ideal.ofBits .f32 0x00000000#32) (ix1 d) = _
  refine (Ideal.hostReduceAdd_single reducesTo_S2x1024_S1024_d0 (by decide : S2x1024.Reduces [0] S1024) Z _ (ix1 d)).trans ?_
  rw [Ideal.ofBits_zero_f32, zero_add]
  refine Finset.sum_congr rfl fun h _ => ?_
  congr 1
  funext a
  match a with
  | ⟨0, _⟩ => rfl
  | ⟨1, _⟩ => rfl

/-- The host's sum over a group's 16 columns, at group g. -/
theorem groupsum_apply (Z : FVec Ideal S64x16 .f32) (g : Fin 64) :
    Host.reduceAdd Z (constant (F := Ideal) S_ .f32 0x00000000#32) reducesTo_S64x16_S64_d1 h_S_ (ix1 g)
      = ∑ j : Fin 16, Z (ix2 g j) := by
  show Ideal.hostReduceAdd reducesTo_S64x16_S64_d1 Z (Ideal.ofBits .f32 0x00000000#32) (ix1 g) = _
  refine (Ideal.hostReduceAdd_single reducesTo_S64x16_S64_d1 (by decide : S64x16.Reduces [1] S64) Z _ (ix1 g)).trans ?_
  rw [Ideal.ofBits_zero_f32, zero_add]
  refine Finset.sum_congr rfl fun j _ => ?_
  congr 1
  funext a
  match a with
  | ⟨0, _⟩ => rfl
  | ⟨1, _⟩ => rfl

/-- The groups' sums the host forms from the first launch's rows are the groups' sums of squares. -/
theorem groupSums_eq (X : FVec Ideal S65536x1024 .f32) : Chain.groupSums (SumSq.halves X) = Spec.groupSq X := by
  funext g'
  obtain ⟨g, rfl⟩ : ∃ g : Fin 64, g' = ix1 g := ⟨g' 0, eq_ix1 g'⟩
  unfold Chain.groupSums
  rw [groupsum_apply]
  show _ = ∑ j : Fin 16, Spec.colSq X (Spec.colOf g j)
  refine Finset.sum_congr rfl fun j _ => ?_
  rw [groups_apply, colsum_apply]
  simp only [rows_apply]
  exact Cert.Sums.sum_tiles (M := EReal) (fun n => Spec.sqAt X (Spec.colOf g j) n)

/-- The term the result buffer holds is the specification's output. -/
theorem output_eq (x : FVec Ideal S32x2048x1024 .f32) (θ : FVec Ideal S64 .f32) :
    shapeCast S32x2048x1024
        (Scale.scaled (shapeCast S65536x1024 x shapeCasts_S32x2048x1024_S65536x1024)
          (Chain.scaleRow (SumSq.halves (shapeCast S65536x1024 x shapeCasts_S32x2048x1024_S65536x1024)) θ))
        shapeCasts_S65536x1024_S32x2048x1024
      = Spec.output bcast_S_S64 shapeCasts_S32x2048x1024_S65536x1024 x θ := by
  funext i
  obtain ⟨b, t, d, rfl⟩ : ∃ (b : Fin 32) (t : Fin 2048) (d : Fin 1024), i = ix3 b t d := ⟨i 0, i 1, i 2, eq_ix3 i⟩
  rw [Cert.Lib.MergeRows.split_apply (a := 32) (b := 2048) (c := 1024) (r := 65536) rfl]
  unfold Scale.scaled
  show (shapeCast S65536x1024 x shapeCasts_S32x2048x1024_S65536x1024
        (ix2 (Cert.Lib.MergeRows.flatRow (a := 32) (b := 2048) (r := 65536) rfl b t) d) : EReal)
      * Chain.scaleRow (SumSq.halves (shapeCast S65536x1024 x shapeCasts_S32x2048x1024_S65536x1024)) θ (ix2 (0 : Fin 1) d) = _
  rw [Cert.Lib.MergeRows.merge_apply (a := 32) (b := 2048) (c := 1024) (r := 65536) rfl]
  unfold Chain.scaleRow
  rw [Cert.Lib.MergeRows.row_apply, ungroup_apply, spread_apply, groupSums_eq]
  rfl

end Cert.KernelIdeal.Bridge

end
-- ==== Proof.RefValue.lean ====
/-
  The reference, read at an index.

  The reference views the input as 32 × 2048 × 64 × 16, sums the squares over every axis but the group axis, forms the
  scales with the same host operations as the specification, multiplies, and views the product as 32 × 2048 × 1024. At
  (b, t, d) that is the input at (b, t, d) times the scale of group d / 16; and the sum over (b, t, j) of the squares in
  group g is the sum over the group's 16 columns of the column's sum over all 65536 rows.
-/
import proofs.«168889_j15023795601934_2_alg».proof.Proof.Gen.ReferenceIdeal.Read
import proofs.«168889_j15023795601934_2_alg».proof.Proof.LibMergeRows
import proofs.«168889_j15023795601934_2_alg».proof.Proof.Spec
import proofs.«168889_j15023795601934_2_alg».proof.Proof.Sums
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open scoped BigOperators

/-- The four-axis view at (b, t, g, j) is the input at (b, t, 16·g + j). -/
theorem view4_apply (x : FVec Ideal S32x2048x1024 .f32) (b : Fin 32) (t : Fin 2048) (g : Fin 64) (j : Fin 16) :
    val_main_v0 (F := Ideal) x (ix4 b t g j) = x (ix3 b t (Spec.colOf g j)) := by
  unfold val_main_v0
  exact shapeCast_apply x shapeCasts_S32x2048x1024_S32x2048x64x16 _ _ (by
    rw [Shape.rowMajor_val_three, Shape.rowMajor_val_four]
    have hb := b.isLt; have ht := t.isLt; have hg := g.isLt; have hj := j.isLt
    show (b.val * 2048 + t.val) * 1024 + (16 * g.val + j.val) = ((b.val * 2048 + t.val) * 64 + g.val) * 16 + j.val
    omega)

/-- The flattened input at row 2048·b + t is the input at (b, t). -/
theorem flat_apply (hc : Spec.Cube.ShapeCasts Spec.Flat) (x : FVec Ideal S32x2048x1024 .f32) (b : Fin 32) (t : Fin 2048) (d : Fin 1024) :
    shapeCast Spec.Flat x hc (ix2 (⟨(b.val * 2048 + t.val) % 65536, Nat.mod_lt _ (by decide)⟩ : Fin 65536) d) = x (ix3 b t d) := by
  have hb := b.isLt; have ht := t.isLt
  have e : (⟨(b.val * 2048 + t.val) % 65536, Nat.mod_lt _ (by decide)⟩ : Fin 65536)
      = Cert.Lib.MergeRows.flatRow (a := 32) (b := 2048) (r := 65536) rfl b t := Fin.ext (by
    show (b.val * 2048 + t.val) % 65536 = b.val * 2048 + t.val
    omega)
  rw [e]
  exact Cert.Lib.MergeRows.merge_apply (a := 32) (b := 2048) (c := 1024) (r := 65536) rfl x hc b t d

/-- The indices the reduction sums at group g: every (b, t, ·, j) with the group coordinate g. -/
def pick (g : Fin 64) : (Fin 32 × Fin 2048 × Fin 16) ↪ S32x2048x64x16.Idx :=
  ⟨fun p => ix4 p.1 p.2.1 g p.2.2, fun p q h =>
    Prod.ext (show p.1 = q.1 from congrFun h 0)
      (Prod.ext (show p.2.1 = q.2.1 from congrFun h 1) (show p.2.2 = q.2.2 from congrFun h 3))⟩

theorem filter_drop (g : Fin 64) :
    Finset.univ.filter (fun i : S32x2048x64x16.Idx => reducesTo_S32x2048x64x16_S64_d0_1_3.drop i = ix1 g)
      = Finset.univ.map (pick g) := by
  ext i
  simp only [Finset.mem_filter, Finset.mem_univ, true_and, Finset.mem_map]
  constructor
  · intro h
    refine ⟨(i 0, i 1, i 3), ?_⟩
    have h2 : i 2 = g := Fin.ext ((Shape.ReducesTo.drop_apply_val_of_eq reducesTo_S32x2048x64x16_S64_d0_1_3 i 0 2).symm.trans
      (congrArg Fin.val (congrFun h 0)))
    show ix4 (i 0) (i 1) g (i 3) = i
    rw [← h2]
    exact (eq_ix4 i).symm
  · rintro ⟨p, rfl⟩
    funext a
    match a with
    | ⟨0, _⟩ => rfl

/-- The reference's sums of squares are the specification's. -/
theorem sumsq_eq (hc : Spec.Cube.ShapeCasts Spec.Flat) (x : FVec Ideal S32x2048x1024 .f32) :
    val_main_v2 (F := Ideal) x = Spec.groupSq (shapeCast Spec.Flat x hc) := by
  funext g'
  obtain ⟨g, rfl⟩ : ∃ g : Fin 64, g' = ix1 g := ⟨g' 0, eq_ix1 g'⟩
  show Ideal.hostReduceAdd reducesTo_S32x2048x64x16_S64_d0_1_3 (val_main_v1 (F := Ideal) x) (Ideal.ofBits .f32 0x00000000#32) (ix1 g) = _
  unfold Ideal.hostReduceAdd
  rw [Ideal.ofBits_zero_f32, zero_add, filter_drop, Finset.sum_map, Fintype.sum_prod_type]
  simp only [Fintype.sum_prod_type]
  unfold Spec.groupSq Spec.colSq
  have hterm : ∀ (b : Fin 32) (t : Fin 2048) (j : Fin 16),
      val_main_v1 (F := Ideal) x (pick g (b, t, j)) = Spec.sqAt (shapeCast Spec.Flat x hc) (Spec.colOf g j) (b.val * 2048 + t.val) := by
    intro b t j
    show (val_main_v0 (F := Ideal) x (ix4 b t g j) : EReal) * val_main_v0 (F := Ideal) x (ix4 b t g j) = _
    unfold Spec.sqAt
    rw [view4_apply, flat_apply]
  simp only [hterm]
  have hcols : ∀ j : Fin 16, ∑ n : Fin 65536, Spec.sqAt (shapeCast Spec.Flat x hc) (Spec.colOf ((ix1 g : Spec.Groups.Idx) 0) j) n.val
      = ∑ b : Fin 32, ∑ t : Fin 2048, Spec.sqAt (shapeCast Spec.Flat x hc) (Spec.colOf g j) (b.val * 2048 + t.val) :=
    fun j => (Cert.Sums.sum_batches (M := EReal) (fun n => Spec.sqAt (shapeCast Spec.Flat x hc) (Spec.colOf g j) n)).symm
  simp only [hcols]
  exact (Finset.sum_congr rfl fun b _ => Finset.sum_comm).trans Finset.sum_comm

/-- The reference's scales are the specification's, of its own sums of squares. -/
theorem scale_eq (x : FVec Ideal S32x2048x1024 .f32) (θ : FVec Ideal S64 .f32) :
    val_main_v8 (F := Ideal) x θ = Spec.scaleOf bcast_S_S64 (val_main_v2 (F := Ideal) x) θ := rfl

/-- The reference's result is the specification's output. -/
theorem result_eq (hc : Spec.Cube.ShapeCasts Spec.Flat) (x : FVec Ideal S32x2048x1024 .f32) (θ : FVec Ideal S64 .f32) :
    val_main_v12 (F := Ideal) x θ = Spec.output bcast_S_S64 hc x θ := by
  funext i
  obtain ⟨b, t, d, rfl⟩ : ∃ (b : Fin 32) (t : Fin 2048) (d : Fin 1024), i = ix3 b t d := ⟨i 0, i 1, i 2, eq_ix3 i⟩
  have hb := b.isLt; have ht := t.isLt; have hd := d.isLt
  have hk : idx_main_v12 (ix3 b t d) = ix4 b t (Spec.groupOf d) (⟨d.val % 16, Nat.mod_lt _ (by decide)⟩ : Fin 16) := by
    funext a
    apply Fin.ext
    match a with
    | ⟨0, _⟩ => show ((b.val * 2048 + t.val) * 1024 + d.val) / 2097152 = b.val; omega
    | ⟨1, _⟩ => show ((b.val * 2048 + t.val) * 1024 + d.val) / 1024 % 2048 = t.val; omega
    | ⟨2, _⟩ => show ((b.val * 2048 + t.val) * 1024 + d.val) / 16 % 64 = d.val / 16; omega
    | ⟨3, _⟩ => show ((b.val * 2048 + t.val) * 1024 + d.val) % 16 = d.val % 16; omega
  have hcol : Spec.colOf (Spec.groupOf d) (⟨d.val % 16, Nat.mod_lt _ (by decide)⟩ : Fin 16) = d := Fin.ext (by
    show 16 * (d.val / 16) + d.val % 16 = d.val
    omega)
  have hg : idx_main_v9 (idx_main_v10 (ix4 b t (Spec.groupOf d) (⟨d.val % 16, Nat.mod_lt _ (by decide)⟩ : Fin 16))) = ix1 (Spec.groupOf d) := by
    funext a
    match a with
    | ⟨0, _⟩ => rfl
  rw [val_main_v12_apply, hk, val_main_v11_apply, val_main_v10_apply, val_main_v9_apply, hg, view4_apply, hcol, scale_eq,
    sumsq_eq hc]
  rfl

end Cert.ReferenceIdeal.RefValue

end
-- ==== Proof.lean ====
/-
  Group soft-thresholding: the two-launch kernel against the jnp reference, on the extended reals.

  The input x has 65536 rows (32 batches of 2048 time steps) of 1024 columns in 64 groups of 16. Both programs scale
  every entry of group g by max (nrm g − θ g, 0) / nrm g, where nrm g = sqrt (ss g + ε) and ss g is the sum of the squares
  of all entries in the group's columns. They differ only in how ss is added up: the reference sums over (batch, time,
  column within the group) at once; the kernel's first launch sums each column over 2 halves × 8 tiles × 4096 rows and
  the host then adds the two halves and each group's 16 columns. Addition on the extended reals is commutative and
  associative, so both are the same sum, and no finiteness of the input is used. The rest — ε, the square root, the
  subtraction, the maximum with zero, the quotient and the product — is the same chain of operations in both programs.

  The kernel's run is the generated frame run with the result buffer named (KernelRun), its contents followed back to
  the arguments (SumSq, Scale, Chain) and read at an index (Bridge); the reference's run is generated and read at an
  index in RefValue; Spec states the common function. The idealization rewrote nothing, so that conjunct is trivial.
-/
import proofs.«168889_j15023795601934_2_alg».proof.Defs
import proofs.«168889_j15023795601934_2_alg».proof.Proof.Gen.Kernel
import proofs.«168889_j15023795601934_2_alg».proof.Proof.Gen.Kernel.Skeleton
import proofs.«168889_j15023795601934_2_alg».proof.Proof.Gen.Kernel.Launch
import proofs.«168889_j15023795601934_2_alg».proof.Proof.Gen.Kernel.Points
import proofs.«168889_j15023795601934_2_alg».proof.Proof.Gen.Kernel.Frame
import proofs.«168889_j15023795601934_2_alg».proof.Proof.Gen.KernelIdeal
import proofs.«168889_j15023795601934_2_alg».proof.Proof.Gen.KernelIdeal.Skeleton
import proofs.«168889_j15023795601934_2_alg».proof.Proof.Gen.KernelIdeal.Launch
import proofs.«168889_j15023795601934_2_alg».proof.Proof.Gen.KernelIdeal.Points
import proofs.«168889_j15023795601934_2_alg».proof.Proof.Gen.KernelIdeal.Frame
import proofs.«168889_j15023795601934_2_alg».proof.Proof.Gen.ReferenceIdeal
import proofs.«168889_j15023795601934_2_alg».proof.Proof.Gen.Pre_finite_inputs
import proofs.«168889_j15023795601934_2_alg».proof.Proof.Gen.ReferenceIdeal.Run
import proofs.«168889_j15023795601934_2_alg».proof.Proof.Gen.ReferenceIdeal.Read
import proofs.«168889_j15023795601934_2_alg».proof.Proof.KernelRun
import proofs.«168889_j15023795601934_2_alg».proof.Proof.Chain
import proofs.«168889_j15023795601934_2_alg».proof.Proof.Bridge
import proofs.«168889_j15023795601934_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result at the specification's output of the arguments: the kernel by the run's chain
    and its reading at an index, the reference by its run's term read at an index, from arguments that agree. -/
theorem algebraic : Cert.algebraic_KernelIdeal_ReferenceIdeal := by
  intro m ρ m' ρ' _ hagree
  refine ⟨fun c => Cert.Spec.output Cert.KernelIdeal.Gen.bcast_S_S64 Cert.KernelIdeal.Gen.shapeCasts_S32x2048x1024_S65536x1024
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun _ h c => ⟨(h c).1.trans ((Cert.KernelIdeal.Chain.result_eq m ρ c).trans (Cert.KernelIdeal.Bridge.output_eq _ _)), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2]
    exact (Cert.ReferenceIdeal.Read.val_main_v12_eq _ _).trans
      (Cert.ReferenceIdeal.RefValue.result_eq Cert.KernelIdeal.Gen.shapeCasts_S32x2048x1024_S65536x1024 _ _)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
